-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S2048x1024 : Shape := ⟨2, ![2048, 1024]⟩
abbrev S1024x1024 : Shape := ⟨2, ![1024, 1024]⟩
abbrev S1024x4096 : Shape := ⟨2, ![1024, 4096]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x4096, .bf16⟩
  | .local _ .vmem, ⟨9, _⟩ => ⟨S1024x4096, .bf16⟩
  | .local _ .vmem, ⟨10, _⟩ => ⟨S1024x4096, .f32⟩
  | .local _ .vmem, ⟨11, _⟩ => ⟨S1024x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 1, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  inb_S1024x4096_S1024x4096_0_0 : ∀ a, (![0, 0] : Fin 2 → Nat) a + S1024x4096.size a ≤ S1024x4096.size a
  h_S1024x4096 : 0 < S1024x4096.numel
  inb_S1024x1024_S1024x1024_0_0 : ∀ a, (![0, 0] : Fin 2 → Nat) a + S1024x1024.size a ≤ S1024x1024.size a
  h_S1024x1024 : 0 < S1024x1024.numel
  shapeCasts_S1024x4096_S1024x4096 : S1024x4096.ShapeCasts S1024x4096
  dot_S1024x1024_S1024x4096_S1024x4096_1_0_0_1_n_n_wf : DotDims.WF S1024x1024 S1024x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .f32 = 32 ∨ (Rect.block (s := S4096x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .f32 = 32 ∨ (Rect.block (s := S4096x4096) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x4096.size a
  hwx0_2 : ∀ i : grid0.Coords, EltTy.bits .bf16 = 32 ∨ (Rect.block (s := S4096x4096) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S8192x4096.size a
  hwx1_2 : ∀ i : grid1.Coords, EltTy.bits .f32 = 32 ∨ (Rect.block (s := S8192x4096) S1024x4096.size (cc1_transform_2 i) (hinb1_2 i)).WholeWords (EltTy.packing .f32)

variable [Facts₀]

def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics both programs compute, stated once over the extended reals.

  A weight matrix is drawn entry by entry: entry (k, j) is +1/64 when u(k, j) lies strictly below the logistic
  function of M(k, j), and -1/64 otherwise.  The result is the matrix product of x with that weight matrix:
  entry (r, j) is the sum over k of x(r, k) times the weight at (k, j).

  The reference spells the weight as ((2·b − 1) + (s − s)) · (1/64), with b the comparison read as 0 or 1 and
  s = 2·p − 1 for the probability p = 1 / (1 + e^(−M)).  The logistic function takes every extended real to a
  real number (0 at −∞, 1 at +∞), so s is real and s − s vanishes; what remains is (2·b − 1)/64, which is
  +1/64 or −1/64 with the comparison.
-/
import Idealize.ShloMosaic.PureOps.Ideal
import Idealize.ShloMosaic.PureOps.Ideal.Laws
import Idealize.ShloMosaic.Lib.ValueIdx

noncomputable section

open scoped BigOperators

namespace Cert.BinaryDense

open Idealize.ShloMosaic Idealize.ShloMosaic.ValueIdx

/-! ## The four float words the programs spell, as the reals they denote -/

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_scale : Ideal.ofBits .f32 0x3C800000#32 = ((1 / 64 : ℝ) : EReal) := by
  simp [Ideal.ofBits, Ideal.ieee, -EReal.coe_mul]; norm_num

theorem word_neg_scale : Ideal.ofBits .f32 0xBC800000#32 = ((-(1 / 64) : ℝ) : EReal) := by
  simp [Ideal.ofBits, Ideal.ieee, -EReal.coe_mul]; norm_num

/-! ## One weight -/

/-- The weight drawn from the parameter `M` and the uniform draw `u`: +1/64 when `u` is strictly below the
    logistic of `M`, −1/64 otherwise (both as the float words the kernel stores). -/
def weight (M u : EReal) : EReal :=
  Scalar.select (Ideal.cmp .olt u (Ideal.logistic M)) (Ideal.ofBits .f32 0x3C800000#32) (Ideal.ofBits .f32 0xBC800000#32)

/-- The same weight as the reference spells it: the comparison as 0 or 1, doubled, less one, plus the
    difference of 2·p − 1 with itself, all times 1/64. -/
def refWeight (M u : EReal) : EReal :=
  ((Ideal.ofBits .f32 0x40000000#32
        * (((Ideal.cmp .olt u (Ideal.div (Ideal.ofBits .f32 0x3F800000#32) (Ideal.ofBits .f32 0x3F800000#32 + Ideal.exp (-M)))).toNat : ℝ) : EReal)
      - Ideal.ofBits .f32 0x3F800000#32)
    + ((Ideal.ofBits .f32 0x40000000#32 * Ideal.div (Ideal.ofBits .f32 0x3F800000#32) (Ideal.ofBits .f32 0x3F800000#32 + Ideal.exp (-M))
          - Ideal.ofBits .f32 0x3F800000#32)
        - (Ideal.ofBits .f32 0x40000000#32 * Ideal.div (Ideal.ofBits .f32 0x3F800000#32) (Ideal.ofBits .f32 0x3F800000#32 + Ideal.exp (-M))
          - Ideal.ofBits .f32 0x3F800000#32)))
    * Ideal.ofBits .f32 0x3C800000#32

/-- The logistic function is real-valued on every extended real: 0 at −∞, 1 at +∞, 1/(1 + e^(−r)) at a real r. -/
theorem logistic_real (M : EReal) : ∃ r : ℝ, Ideal.logistic M = (r : EReal) := by
  induction M using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The reference's quotient 1 / (1 + e^(−M)) is the logistic function. -/
theorem quotient_eq_logistic (M : EReal) :
    Ideal.div (Ideal.ofBits .f32 0x3F800000#32) (Ideal.ofBits .f32 0x3F800000#32 + Ideal.exp (-M)) = Ideal.logistic M := by
  rw [word_one, EReal.coe_one]; rfl

/-- The reference's weight is the kernel's: the probability is real, so its doubled-and-shifted copy cancels
    against itself, and (2·b − 1)/64 is ±1/64 with the comparison. -/
theorem refWeight_eq (M u : EReal) : refWeight M u = weight M u := by
  obtain ⟨r, hr⟩ := logistic_real M
  unfold refWeight weight
  rw [quotient_eq_logistic, hr, word_one, word_two, word_scale, word_neg_scale]
  by_cases h : u < (r : EReal)
  · have hc : Ideal.cmp .olt u (r : EReal) = 1#1 := by simp [Ideal.cmp, h]
    rw [hc, ValueIdx.select_one]
    simp only [← EReal.coe_mul, ← EReal.coe_sub, ← EReal.coe_add]
    congr 1
    norm_num
  · have hc : Ideal.cmp .olt u (r : EReal) = 0#1 := by simp [Ideal.cmp, h]
    rw [hc, ValueIdx.select_zero]
    simp only [← EReal.coe_mul, ← EReal.coe_sub, ← EReal.coe_add]
    congr 1
    norm_num

/-! ## The arrays -/

/-- The weight matrix, entry by entry. -/
def weights (M u : (⟨2, ![4096, 4096]⟩ : Shape).Idx → EReal) : (⟨2, ![4096, 4096]⟩ : Shape).Idx → EReal :=
  fun i => weight (M i) (u i)

/-- Entry (r, j) of the product of `x` with a weight matrix `w`: the sum over k of x(r, k) · w(k, j). -/
def denseAt (x : (⟨2, ![8192, 4096]⟩ : Shape).Idx → EReal) (w : (⟨2, ![4096, 4096]⟩ : Shape).Idx → EReal)
    (r : Fin 8192) (j : Fin 4096) : EReal :=
  ∑ k : Fin 4096, x (ix2 r k) * w (ix2 k j)

/-- The product as an array. -/
def dense (x : (⟨2, ![8192, 4096]⟩ : Shape).Idx → EReal) (w : (⟨2, ![4096, 4096]⟩ : Shape).Idx → EReal) :
    (⟨2, ![8192, 4096]⟩ : Shape).Idx → EReal :=
  fun i => denseAt x w ⟨(i 0).val, (i 0).isLt⟩ ⟨(i 1).val, (i 1).isLt⟩

/-! ## A sum over 4096 terms, split into four runs of 1024 -/

/-- The sum over k < 4096 is the sum over the four blocks s < 4 of the sums over the 1024 positions inside
    block s: k = 1024·s + q. -/
theorem sum_blocks (f : Fin 4096 → EReal) :
    ∑ k : Fin 4096, f k
      = ∑ s ∈ Finset.range 4, ∑ q : Fin 1024, f ⟨1024 * (s % 4) + q.val, by have := q.isLt; have := Nat.mod_lt s (show 0 < 4 by decide); omega⟩ := by
  rw [Finset.sum_range]
  rw [← Equiv.sum_comp (finProdFinEquiv (m := 4) (n := 1024)) f, Fintype.sum_prod_type]
  refine Finset.sum_congr rfl fun s _ => Finset.sum_congr rfl fun q _ => ?_
  congr 1
  apply Fin.ext
  show q.val + 1024 * s.val = 1024 * (s.val % 4) + q.val
  have := s.isLt
  rw [Nat.mod_eq_of_lt this]; omega

end Cert.BinaryDense

end
-- ==== Proof.RefValue.lean ====
/-
  The reference program's result, read index by index over the extended reals: entry (r, j) is the sum over k of
  x(r, k) times the weight at (k, j), the weight being the reference's own spelling of ±1/64 (Spec.lean shows it
  is the kernel's).
-/
import proofs.«131951_j26044681683332_2_alg».proof.Proof.Gen.ReferenceIdeal.Read
import proofs.«131951_j26044681683332_2_alg».proof.Proof.Spec

noncomputable section

open scoped BigOperators

namespace Cert.ReferenceIdeal.RefValue

open Cert.ReferenceIdeal Cert.ReferenceIdeal.Read Idealize.ShloMosaic Idealize.ShloMosaic.ValueIdx Cert.BinaryDense

/-- One entry of the reference's weight matrix is the weight of that entry's `M` and `u`: the reference's
    elementwise chain at an index is its own spelling of the weight, which is the kernel's. -/
theorem weight_at (x1 x2 : (⟨S4096x4096, .f32⟩ : BufTy).Contents (Elt Ideal)) (j : S4096x4096.Idx) :
    val_main_v19 (F := Ideal) x1 x2 j = weight (x1 j) (x2 j) := by
  rw [← refWeight_eq]
  simp only [val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply,
    val_main_cst_2_apply, val_main_cst_3_apply, val_main_cst_4_apply, val_main_cst_5_apply]
  rfl

/-- The reference's result array is the product of `x` with the weight matrix. -/
theorem result_eq (x0 : (⟨S8192x4096, .f32⟩ : BufTy).Contents (Elt Ideal)) (x1 x2 : (⟨S4096x4096, .f32⟩ : BufTy).Contents (Elt Ideal)) :
    val_main_v20 (F := Ideal) x0 x1 x2 = dense x0 (weights x1 x2) := by
  funext i
  rw [val_main_v20_apply]
  unfold dense denseAt
  refine Finset.sum_congr rfl fun k _ => ?_
  have el : lidx_main_v20 i k = ix2 (⟨(i 0).val, (i 0).isLt⟩ : Fin 8192) k :=
    funext fun a => by match a with | ⟨0, _⟩ => rfl | ⟨1, _⟩ => rfl
  have er : ridx_main_v20 i k = ix2 k (⟨(i 1).val, (i 1).isLt⟩ : Fin 4096) :=
    funext fun a => by match a with | ⟨0, _⟩ => rfl | ⟨1, _⟩ => rfl
  rw [el, er, weight_at]
  rfl

end Cert.ReferenceIdeal.RefValue

end
-- ==== Proof.MaskValue.lean ====
/-
  The first launch writes the weight matrix.

  Its grid is 2 × 4; at point (a, b) every window's block is the 2048 × 1024 tile with corner
  (2048·a, 1024·b): the tile of `M`, the tile of `u`, and the tile of the result.  The body stores, at each
  position of the tile, the weight of the `M` and `u` entries at that position (a change of float format is
  the identity over the extended reals).  The eight tiles partition the 4096 × 4096 array — entry (r, j)
  lies in tile (r / 2048, j / 1024) — so after the launch the array holds the weight of `M` and `u` at every
  entry.
-/
import proofs.«131951_j26044681683332_2_alg».proof.Proof.Gen.KernelIdeal.Frame
import proofs.«131951_j26044681683332_2_alg».proof.Proof.Spec
import Idealize.ShloMosaic.Lib.Pipeline.Value
import Idealize.ShloMosaic.Lib.ValueIdx

noncomputable section

namespace Cert.KernelIdeal.MaskValue

open Cert.KernelIdeal Cert.KernelIdeal.Gen Cert.BinaryDense
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at a position of the tile is the weight of the two loaded values there. -/
theorem stored_apply (v0 v2 : Vec Ideal S2048x1024 .f32) (j : S2048x1024.Idx) :
    k0_pay1 v0 v2 j = weight (v0 j) (v2 j) := rfl

/-- The three windows move together over the grid, and the tile index stays inside 2 × 4. -/
theorem tiles_together : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every tile of the 2 × 4 partition is some point's. -/
theorem tile_onto : ∀ (q0 : Fin 2) (q1 : Fin 4), ∃ t : Fin cfg0.N, win0_2.index t = ![q0.val, q1.val] :=
  (by decide +kernel : ∀ (q0 : Fin 2) (q1 : Fin 4), ∃ t : Fin grid0.N, win0_2.index t = ![q0.val, q1.val])

/-- What point `t` writes back is its tile of the weight matrix of `M` and `u` as the launch finds them. -/
theorem flushed_eq (c : Dev nD) (t : Fin cfg0.N) :
    (dat0 V c).flushed 2 t
      = ((cfg0.win 2).blk t).view.read (Elt Ideal) (weights (V c main_arg1) (V c main_arg2)) := by
  show (cfg0.win 2).cut (grid0.coords t) ((dat0 V c).after 2 t) = _
  rw [after0_2]
  unfold out0_2
  rw [View.canon_unit_zero hz]
  simp only [View.ld_unit_zero (S := S2048x1024) hz]
  obtain ⟨e0, e1, e2, e3⟩ := tiles_together t
  funext j
  show weight (V c main_arg1 (((cfg0.win 0).blk t).view.emb j)) (V c main_arg2 (((cfg0.win 1).blk t).view.emb j))
    = weight (V c main_arg1 (((cfg0.win 2).blk t).view.emb j)) (V c main_arg2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * (j 1).val = win0_2.index t (1 : Fin 2) * 1024 + 1 * (j 1).val; omega
  have h1 : ((cfg0.win 1).blk t).view.emb j = ((cfg0.win 2).blk t).view.emb j := by
    funext a; apply Fin.ext
    match a with
    | ⟨0, _⟩ => show win0_1.index t (0 : Fin 2) * 2048 + 1 * (j 0).val = win0_2.index t (0 : Fin 2) * 2048 + 1 * (j 0).val; omega
    | ⟨1, _⟩ => show win0_1.index t (1 : Fin 2) * 1024 + 1 * (j 1).val = win0_2.index t (1 : Fin 2) * 1024 + 1 * (j 1).val; omega
  rw [h0, h1]

/-- An entry of the array is in point `t`'s tile iff each coordinate is in the tile's range on its axis. -/
theorem mem_tile (t : Fin cfg0.N) (i : S4096x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Every entry lies in the tile of some point, and every point writes its tile back. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := tile_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- After the launch the result array is the weight matrix of `M` and `u` as the launch found them. -/
theorem final (c : Dev nD) :
    (dat0 V c).arrAt 2 cfg0.N = weights (V c main_arg1) (V c main_arg2) :=
  (dat0 V c).arrAt_eq_of_cover 2 (weights (V c main_arg1) (V c main_arg2)) (fun t _ => flushed_eq V c t) covered

end Cert.KernelIdeal.MaskValue

end
-- ==== Proof.AccPieces.lean ====
/-
  What one step of the second launch leaves in the result tile.

  The body loads a 1024 × 1024 tile of `x` and a 1024 × 4096 tile of the weight matrix, multiplies them, and adds
  the product to the 1024 × 4096 result tile it holds; on the first step of a run it first stores zeros into
  that tile.  So a first step leaves 0 + (tile of x)·(tile of w), and a later step leaves what was there plus
  that step's product.  Read at entry (r, j), the product is the sum over the 1024 positions q of the run of
  x-tile(r, q) times w-tile(q, j); a change of float format is the identity over the extended reals, and the
  zero word denotes 0.
-/
import proofs.«131951_j26044681683332_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.AccPieces

open Cert.KernelIdeal Cert.KernelIdeal.Gen
open Idealize.ShloMosaic Idealize.ShloMosaic.TcCoe Idealize.SL.Sem Idealize.ShloMosaic.ValueIdx

variable {F : FTy → Type} [FloatOps F]

theorem hz : (![0, 0] : Fin 2 → Nat) = fun _ => 0 := funext fun a => by fin_cases a <;> rfl

/-- A LATER step of a run: the tile held `xo`, and the body leaves `xo` plus the product of the two loaded
    tiles — its one store covers the tile, and its loads read the whole buffers. -/
theorem later_step (c : Dev nD) (i : grid1.Coords) (a3 : Memref sig .tc .vmem S1024x1024 .f32) (h3 : a3.IsWhole)
    (a4 : Memref sig .tc .vmem S1024x4096 .bf16) (h4 : a4.IsWhole) (a5 : Memref sig .tc .vmem S1024x4096 .f32) (h5 : a5.IsWhole)
    (hc : ¬cond1_0 i) (x0 : Vec F S1024x1024 .f32) (x1 : Vec F S1024x4096 .bf16) (xo : Vec F S1024x4096 .f32) :
    out1_B_2 c i a3 h3 a4 h4 a5 h5 hc x0 x1 xo = k1_pay2 x0 xo x1 := by
  unfold out1_B_2
  rw [View.read_writes_eq_canon _ _ _ (cover1_B_2 c i a3 h3 a4 h4 a5 h5 hc x0 x1 xo)]
  unfold kernelRun1_B
  dsimp only
  rw [View.canon_unit_zero hz]
  simp only [View.readAt_eq_ld, h3.read_unread, h4.read_unread, h5.read_unread, View.ld_unit_zero (S := S1024x1024) hz,
    View.ld_unit_zero (S := S1024x4096) hz]

/-- A FIRST step of a run: the body stores the zero tile, reads it back, and leaves zeros plus the product of
    the two loaded tiles. -/
theorem first_step (c : Dev nD) (i : grid1.Coords) (a3 : Memref sig .tc .vmem S1024x1024 .f32) (h3 : a3.IsWhole)
    (a4 : Memref sig .tc .vmem S1024x4096 .bf16) (h4 : a4.IsWhole) (a5 : Memref sig .tc .vmem S1024x4096 .f32) (h5 : a5.IsWhole)
    (hc : cond1_0 i) (x0 : Vec F S1024x1024 .f32) (x1 : Vec F S1024x4096 .bf16) :
    out1_A_2 c i a3 h3 a4 h4 a5 h5 hc x0 x1 = k1_pay2 x0 (k1_pay1 (F := F)) x1 := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S1024x4096) hz, View.readCov_unit_zero (S := S1024x4096) _ hz]
  simp only [View.readAt_eq_ld, h3.read_unread, h4.read_unread, View.ld_unit_zero (S := S1024x1024) hz,
    View.ld_unit_zero (S := S1024x4096) hz]

/-! ## One step read at an entry, over the extended reals -/

/-- The zero tile holds 0 at every entry. -/
theorem zero_tile_apply (y : S1024x4096.Idx) : k1_pay1 (F := Ideal) y = 0 := by
  show Ideal.ofBits .f32 0x00000000#32 = 0
  exact Ideal.ofBits_zero_f32

/-- Along the one contracted axis, the left tile is read at (row of the entry, position). -/
theorem left_row (i : S1024x4096.Idx) (q : dot_S1024x1024_S1024x4096_S1024x4096_1_0_0_1_n_n.contr.Idx) :
    (dot_S1024x1024_S1024x4096_S1024x4096_1_0_0_1_n_n.lhsIdx i q 0).val = (i 0).val := by
  unfold DotDims.lhsIdx
  rw [dif_neg (show ¬(0 : Fin S1024x1024.rank) ∈ dot_S1024x1024_S1024x4096_S1024x4096_1_0_0_1_n_n.lhsBatch by decide),
    dif_pos (show (0 : Fin S1024x1024.rank) ∈ dot_S1024x1024_S1024x4096_S1024x4096_1_0_0_1_n_n.lhsNonContracting by decide)]
  rfl

/-- and the right tile at (position, column of the entry). -/
theorem right_col (i : S1024x4096.Idx) (q : dot_S1024x1024_S1024x4096_S1024x4096_1_0_0_1_n_n.contr.Idx) :
    (dot_S1024x1024_S1024x4096_S1024x4096_1_0_0_1_n_n.rhsIdx i q 1).val = (i 1).val := by
  unfold DotDims.rhsIdx
  rw [dif_neg (show ¬(1 : Fin S1024x4096.rank) ∈ dot_S1024x1024_S1024x4096_S1024x4096_1_0_0_1_n_n.rhsBatch by decide),
    dif_pos (show (1 : Fin S1024x4096.rank) ∈ dot_S1024x1024_S1024x4096_S1024x4096_1_0_0_1_n_n.rhsNonContracting by decide)]
  rfl

/-- The tile product into a zero accumulator, at entry (r, j): the sum over the 1024 positions q of
    left(r, q) · right(q, j). -/
theorem product_apply (l : FVec Ideal S1024x1024 .bf16) (w : FVec Ideal S1024x4096 .bf16) (r : Fin 1024) (j : Fin 4096) :
    matmul dot_S1024x1024_S1024x4096_S1024x4096_1_0_0_1_n_n none l w (constant S1024x4096 .f32 0x00000000#32) (ix2 r j)
      = ∑ q : Fin 1024, l (ix2 r q) * w (ix2 q j) := by
  simp only [matmul]
  rw [Ideal.matmul_constant_zero_apply,
    ← Equiv.sum_comp (ValueIdx.contrEquiv1 dot_S1024x1024_S1024x4096_S1024x4096_1_0_0_1_n_n 1024 rfl rfl).symm]
  refine Finset.sum_congr rfl fun k _ => ?_
  have hk := ValueIdx.contrEquiv1_symm_val dot_S1024x1024_S1024x4096_S1024x4096_1_0_0_1_n_n 1024 rfl rfl k
  have el : dot_S1024x1024_S1024x4096_S1024x4096_1_0_0_1_n_n.lhsIdx (ix2 r j) ((ValueIdx.contrEquiv1 dot_S1024x1024_S1024x4096_S1024x4096_1_0_0_1_n_n 1024 rfl rfl).symm k) = ix2 r k :=
    funext fun a => Fin.ext (by
      match a with
      | ⟨0, _⟩ => exact left_row _ _
      | ⟨1, _⟩ => exact (dot_S1024x1024_S1024x4096_S1024x4096_1_0_0_1_n_n.lhsIdx_val_of_single rfl _ _).trans hk)
  have er : dot_S1024x1024_S1024x4096_S1024x4096_1_0_0_1_n_n.rhsIdx (ix2 r j) ((ValueIdx.contrEquiv1 dot_S1024x1024_S1024x4096_S1024x4096_1_0_0_1_n_n 1024 rfl rfl).symm k) = ix2 k j :=
    funext fun a => Fin.ext (by
      match a with
      | ⟨0, _⟩ => exact (dot_S1024x1024_S1024x4096_S1024x4096_1_0_0_1_n_n.rhsIdx_val_of_single rfl _ _).trans hk
      | ⟨1, _⟩ => exact right_col _ _)
  rw [el, er]

/-- One step at entry (r, j): what the tile held there, plus the sum over the run's 1024 positions of
    x-tile(r, q) · w-tile(q, j). -/
theorem step_apply (x0 : Vec Ideal S1024x1024 .f32) (xo : Vec Ideal S1024x4096 .f32) (x1 : Vec Ideal S1024x4096 .bf16)
    (r : Fin 1024) (j : Fin 4096) :
    k1_pay2 x0 xo x1 (ix2 r j) = xo (ix2 r j) + ∑ q : Fin 1024, x0 (ix2 r q) * x1 (ix2 q j) := by
  unfold k1_pay2
  show shapeCast S1024x4096 xo shapeCasts_S1024x4096_S1024x4096 (ix2 r j)
      + matmul (F := Ideal) dot_S1024x1024_S1024x4096_S1024x4096_1_0_0_1_n_n none (truncf (F := Ideal) .bf16 (x0 : FVec Ideal S1024x1024 .f32) bitsLt_bf16_f32)
          (shapeCast S1024x4096 (x1 : FVec Ideal S1024x4096 .bf16) shapeCasts_S1024x4096_S1024x4096)
          (constant (F := Ideal) S1024x4096 .f32 0x00000000#32) (ix2 r j) = _
  rw [shapeCast_self, shapeCast_self, product_apply]
  rfl

end Cert.KernelIdeal.AccPieces

end
-- ==== Proof.AccValue.lean ====
/-
  The second launch leaves the matrix product in the result array.

  Its grid is 8 × 1 × 4, walked with the last axis fastest: point t is step t mod 4 of run t / 4.  At point t
  the x window holds the 1024 × 1024 tile of `x` with corner (1024·(t/4), 1024·(t mod 4)), the weight window the
  1024 × 4096 tile with corner (1024·(t mod 4), 0), and the result window the 1024 × 4096 tile with corner
  (1024·(t/4), 0), which stays in place through the run and is written back after the run's last step.

  By AccPieces a run's first step leaves 0 plus its tile product and each later step adds its own, so after the
  last step entry (r, j) of the tile holds the sum over the four steps s of the sum over positions q of
  x(1024·(t/4) + r, 1024·s + q) · w(1024·s + q, j): the sum over all k < 4096 of x(row, k) · w(k, j), cut into four
  runs of 1024.  The eight result tiles partition the 8192 × 4096 array by rows, so the array ends as the
  product of `x` (as the launch finds it) with the weight matrix (as the launch finds it).
-/
import proofs.«131951_j26044681683332_2_alg».proof.Proof.AccPieces
import proofs.«131951_j26044681683332_2_alg».proof.Proof.Spec

noncomputable section

open scoped BigOperators

namespace Cert.KernelIdeal.AccValue

open Cert.KernelIdeal Cert.KernelIdeal.Gen Cert.KernelIdeal.AccPieces Cert.BinaryDense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's tile sits at point `t`: run `t / 4`, step `t % 4`. -/
theorem tile_index : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- The x window's tile at point `t`, and the weight window's, as arrays of extended reals. -/
abbrev xTile (c : Dev nD) (t : Fin cfg1.N) : Vec Ideal S1024x1024 .f32 := iblk1 V c 0 t
abbrev wTile (c : Dev nD) (t : Fin cfg1.N) : Vec Ideal S1024x4096 .bf16 := iblk1 V c 1 t

/-- The x window's tile at point `t`, entry (r, q), is `x` at (1024·(t/4) + r, 1024·(t%4) + q). -/
theorem x_tile (c : Dev nD) (t : Fin cfg1.N) (r q : Fin 1024) (R : Fin 8192) (K : Fin 4096)
    (hR : R.val = 1024 * (t.val / 4) + r.val) (hK : K.val = 1024 * (t.val % 4) + q.val) :
    xTile V c t (ix2 r q) = V c main_arg0 (ix2 R K) := by
  obtain ⟨e0, e1, -, -, -, -⟩ := tile_index t
  unfold xTile iblk1
  rw [View.read_apply]
  show V c main_arg0 _ = V c main_arg0 _
  congr 1
  funext a
  apply Fin.ext
  match a with
  | ⟨0, _⟩ => show win1_0.index t (0 : Fin 2) * 1024 + 1 * r.val = R.val; rw [e0, hR]; omega
  | ⟨1, _⟩ => show win1_0.index t (1 : Fin 2) * 1024 + 1 * q.val = K.val; rw [e1, hK]; omega

/-- The weight window's tile at point `t`, entry (q, j), is the weight matrix at (1024·(t%4) + q, j). -/
theorem w_tile (c : Dev nD) (t : Fin cfg1.N) (q : Fin 1024) (j : Fin 4096) (K : Fin 4096)
    (hK : K.val = 1024 * (t.val % 4) + q.val) :
    wTile V c t (ix2 q j) = V c main_v0 (ix2 K j) := by
  obtain ⟨-, -, e2, e3, -, -⟩ := tile_index t
  unfold wTile iblk1
  rw [View.read_apply]
  show V c main_v0 _ = V c main_v0 _
  congr 1
  funext a
  apply Fin.ext
  match a with
  | ⟨0, _⟩ => show win1_1.index t (0 : Fin 2) * 1024 + 1 * q.val = K.val; rw [e2, hK]; omega
  | ⟨1, _⟩ => show win1_1.index t (1 : Fin 2) * 4096 + 1 * j.val = j.val; rw [e3]; omega

/-- The result window's tile at point `t`, entry (r, j), sits in the array at (1024·(t/4) + r, j). -/
theorem out_entry (t : Fin cfg1.N) (r : Fin 1024) (j : Fin 4096) (R : Fin 8192) (hR : R.val = 1024 * (t.val / 4) + r.val) :
    ((cfg1.win 2).blk t).view.emb (ix2 r j) = ix2 R j := by
  obtain ⟨-, -, -, -, e4, e5⟩ := tile_index t
  funext a
  apply Fin.ext
  match a with
  | ⟨0, _⟩ => show win1_2.index t (0 : Fin 2) * 1024 + 1 * r.val = R.val; rw [e4, hR]; omega
  | ⟨1, _⟩ => show win1_2.index t (1 : Fin 2) * 4096 + 1 * j.val = j.val; rw [e5]; omega

/-! ## A run of steps as a fold -/

/-- What a run's first step leaves, at point `n`. -/
def firstAt (c : Dev nD) : (n : ℕ) → n < cfg1.N → Vec Ideal S1024x4096 .f32 :=
  fun n h => k1_pay2 (xTile V c ⟨n, h⟩) (k1_pay1 (F := Ideal)) (wTile V c ⟨n, h⟩)

/-- What a later step leaves at point `n`, over what the point before left. -/
def stepAt (c : Dev nD) : (n : ℕ) → n < cfg1.N → Vec Ideal S1024x4096 .f32 → Vec Ideal S1024x4096 .f32 :=
  fun n h held => k1_pay2 (xTile V c ⟨n, h⟩) held (wTile V c ⟨n, h⟩)

/-- Point `n`'s own contribution at a tile entry: its tile product there (0 past the grid, never used). -/
def addend (c : Dev nD) (n : ℕ) (y : S1024x4096.Idx) : EReal :=
  if h : n < cfg1.N then
    ∑ q : Fin 1024, xTile V c ⟨n, h⟩ (ix2 (⟨(y 0).val, (y 0).isLt⟩ : Fin 1024) q)
      * wTile V c ⟨n, h⟩ (ix2 q (⟨(y 1).val, (y 1).isLt⟩ : Fin 4096))
  else 0

theorem outs_first (c : Dev nD) (n : ℕ) (h : n < cfg1.N) (h0 : n % 4 = 0) : outsAt1 V c n h = firstAt V c n h :=
  (outsAt1_A V c ⟨n, h⟩ h0).trans (first_step ..)

theorem outs_later (c : Dev nD) (n : ℕ) (h : n + 1 < cfg1.N) (h0 : ¬(n + 1) % 4 = 0) :
    outsAt1 V c (n + 1) h = stepAt V c (n + 1) h (outsAt1 V c n (Nat.lt_of_succ_lt h)) :=
  (outsAt1_B V c ⟨n + 1, h⟩ h0).trans (later_step ..)

/-- What the result tile holds after point `t` is the fold over its run, up to its step. -/
theorem outs_fold (c : Dev nD) (t : ℕ) (ht : t < cfg1.N) (h' : 4 * (t / 4) + t % 4 < cfg1.N) :
    outsAt1 V c t ht = Pipeline.accAt (firstAt V c) (stepAt V c) (4 * (t / 4)) (t % 4) h' :=
  Pipeline.eq_accAt_of_mod (outsAt1 V c) 4 (firstAt V c) (stepAt V c) (outs_first V c) (outs_later V c) (by decide) t ht h'

/-- The fold at an entry: 0 plus the contributions of the run's points so far. -/
theorem fold_apply (c : Dev nD) (b : ℕ) (j : ℕ) (hj : j ≤ 3) (h : b + j < cfg1.N) (y : S1024x4096.Idx) :
    Pipeline.accAt (firstAt V c) (stepAt V c) b j h y = 0 + ∑ s ∈ Finset.range (j + 1), addend V c (b + s) y := by
  refine Pipeline.accAt_add_apply (firstAt V c) (stepAt V c) (fun _ => (0 : EReal)) (addend V c) b 3 ?_ ?_ j hj h y
  · intro hb i
    obtain ⟨r, k, rfl⟩ : ∃ (r : Fin 1024) (k : Fin 4096), i = ix2 r k := ⟨i 0, i 1, eq_ix2 i⟩
    refine (step_apply (xTile V c ⟨b, hb⟩) (k1_pay1 (F := Ideal)) (wTile V c ⟨b, hb⟩) r k).trans ?_
    rw [zero_tile_apply]
    unfold addend
    rw [dif_pos hb]
  · intro n hn held i _ _
    obtain ⟨r, k, rfl⟩ : ∃ (r : Fin 1024) (k : Fin 4096), i = ix2 r k := ⟨i 0, i 1, eq_ix2 i⟩
    refine (step_apply (xTile V c ⟨n, hn⟩) held (wTile V c ⟨n, hn⟩) r k).trans ?_
    unfold addend
    rw [dif_pos hn]

/-! ## What a run's last point writes back, and the final array -/

/-- The point that ends a run writes back its tile of the product of `x` with the weight matrix. -/
theorem flushed_eq (c : Dev nD) (t : Fin cfg1.N) (hf : (cfg1.win 2).flush t = true) :
    (dat1 V c).flushed 2 t
      = ((cfg1.win 2).blk t).view.read (Elt Ideal) (dense (V c main_arg0) (V c main_v0)) := by
  have hN : cfg1.N = 32 := N_1
  have ht : t.val < 32 := lt_of_lt_of_eq t.isLt hN
  have h3 : t.val % 4 = 3 := (flush1_2 t).mp hf
  show (cfg1.win 2).cut (grid1.coords t) ((dat1 V c).after 2 t) = _
  rw [after1_2]
  funext y
  obtain ⟨r, j, rfl⟩ : ∃ (r : Fin 1024) (j : Fin 4096), y = ix2 r j := ⟨y 0, y 1, eq_ix2 y⟩
  have hr : r.val < 1024 := r.isLt
  show outsAt1 V c t.val t.isLt (ix2 r j)
    = dense (V c main_arg0) (V c main_v0) (((cfg1.win 2).blk t).view.emb (ix2 r j))
  rw [out_entry t r j ⟨1024 * (t.val / 4) + r.val, by omega⟩ rfl,
    outs_fold V c t.val t.isLt (by omega),
    fold_apply V c (4 * (t.val / 4)) (t.val % 4) (by omega) (by omega) (ix2 r j), h3, zero_add]
  show _ = denseAt (V c main_arg0) (V c main_v0) ⟨1024 * (t.val / 4) + r.val, _⟩ j
  unfold denseAt
  rw [sum_blocks]
  refine Finset.sum_congr rfl fun s hs => ?_
  have hs4 : s < 4 := Finset.mem_range.mp hs
  have hlt : 4 * (t.val / 4) + s < cfg1.N := by omega
  unfold addend
  rw [dif_pos hlt]
  refine Finset.sum_congr rfl fun q _ => ?_
  have hq : q.val < 1024 := q.isLt
  rw [x_tile V c ⟨4 * (t.val / 4) + s, hlt⟩ r q ⟨1024 * (t.val / 4) + r.val, by omega⟩ ⟨1024 * (s % 4) + q.val, by omega⟩
      (by show 1024 * (t.val / 4) + r.val = 1024 * ((4 * (t.val / 4) + s) / 4) + r.val; omega)
      (by show 1024 * (s % 4) + q.val = 1024 * ((4 * (t.val / 4) + s) % 4) + q.val; omega),
    w_tile V c ⟨4 * (t.val / 4) + s, hlt⟩ q j ⟨1024 * (s % 4) + q.val, by omega⟩
      (by show 1024 * (s % 4) + q.val = 1024 * ((4 * (t.val / 4) + s) % 4) + q.val; omega)]

/-- An entry of the array is in point `t`'s tile iff each coordinate is in the tile's range on its axis. -/
theorem mem_tile (t : Fin cfg1.N) (i : S8192x4096.Idx) :
    i ∈ ((cfg1.win 2).blk t).view.set ↔ ∀ a : Fin 2, win1_2.index t a * S1024x4096.size a ≤ (i a).val
      ∧ (i a).val < win1_2.index t a * S1024x4096.size a + S1024x4096.size a := by
  show i ∈ ((View.whole main_v1).slice (win1_2.rect t)).set ↔ _
  rw [View.set_slice_whole, Rect.mem_set_unit]
  exact Iff.rfl

/-- Row r of the array lies in the tile of run r / 1024, which that run's last point writes back. -/
theorem covered (i : S8192x4096.Idx) :
    ∃ t : Fin cfg1.N, (cfg1.win 2).flush t = true ∧ i ∈ ((cfg1.win 2).blk t).view.set := by
  have hN : cfg1.N = 32 := N_1
  have hi0 : (i 0).val < 8192 := (i 0).isLt
  have hi1 : (i 1).val < 4096 := (i 1).isLt
  have hlt : 4 * ((i 0).val / 1024) + 3 < cfg1.N := by omega
  obtain ⟨-, -, -, -, e4, e5⟩ := tile_index ⟨4 * ((i 0).val / 1024) + 3, hlt⟩
  have e4' : win1_2.index ⟨4 * ((i 0).val / 1024) + 3, hlt⟩ (0 : Fin 2) = (4 * ((i 0).val / 1024) + 3) / 4 := e4
  refine ⟨⟨4 * ((i 0).val / 1024) + 3, hlt⟩, (flush1_2 _).mpr (by show (4 * ((i 0).val / 1024) + 3) % 4 = 3; omega), ?_⟩
  rw [mem_tile]
  intro a
  match a with
  | ⟨0, _⟩ =>
    show win1_2.index ⟨4 * ((i 0).val / 1024) + 3, hlt⟩ (0 : Fin 2) * 1024 ≤ (i 0).val
      ∧ (i 0).val < win1_2.index ⟨4 * ((i 0).val / 1024) + 3, hlt⟩ (0 : Fin 2) * 1024 + 1024
    rw [e4']; omega
  | ⟨1, _⟩ =>
    show win1_2.index ⟨4 * ((i 0).val / 1024) + 3, hlt⟩ (1 : Fin 2) * 4096 ≤ (i 1).val
      ∧ (i 1).val < win1_2.index ⟨4 * ((i 0).val / 1024) + 3, hlt⟩ (1 : Fin 2) * 4096 + 4096
    rw [e5]; omega

/-- After the launch the result array is the product of `x` with the weight matrix, both as the launch found them. -/
theorem final (c : Dev nD) :
    (dat1 V c).arrAt 2 cfg1.N = dense (V c main_arg0) (V c main_v0) :=
  (dat1 V c).arrAt_eq_of_cover 2 (dense (V c main_arg0) (V c main_v0)) (flushed_eq V c) covered

end Cert.KernelIdeal.AccValue

end
-- ==== Proof.KernelRun.lean ====
/-
  The kernel program's run, with its result named.

  The program is two launches in a row.  The first leaves the weight matrix of `M` and `u` in an intermediate
  array (MaskValue); the second finds `x` untouched and that array as its weight operand, and leaves their
  product in the result array (AccValue).  So every weakly fair execution ends with the result array at the
  product of `x` with the weight matrix of `M` and `u`, and the three arguments as launched.
-/
import proofs.«131951_j26044681683332_2_alg».proof.Proof.MaskValue
import proofs.«131951_j26044681683332_2_alg».proof.Proof.AccValue

set_option maxRecDepth 16384

noncomputable section

namespace Cert.KernelIdeal.Run

open Cert.KernelIdeal Cert.KernelIdeal.Gen Cert.BinaryDense
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at what the
    second launch's write-backs leave (over what the first launch's leave) and the arguments as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Run

namespace Cert.KernelIdeal.Run

open Cert.KernelIdeal Cert.KernelIdeal.Gen Cert.BinaryDense
open Idealize.ShloMosaic Idealize.ShloMosaic.TcCoe Idealize.SL.Sem

variable (m : (ℓ : Loc nD τ sig) → Buf (Elt Ideal) ℓ) (ρ : Dev nD → PrngReg)

/-- What the second launch finds as its weight operand is the weight matrix of the arguments `M` and `u`. -/
theorem weights_found (c : Dev nD) :
    V1 m ρ c main_v0 = weights (m ((c.tc : Thread nD τ).loc main_arg1)) (m ((c.tc : Thread nD τ).loc main_arg2)) :=
  (W1_arr m ρ c 2).trans (MaskValue.final (V0 m ρ) c)

/-- and what it finds as `x` is the argument. -/
theorem x_found (c : Dev nD) : V1 m ρ c main_arg0 = m ((c.tc : Thread nD τ).loc main_arg0) :=
  W1_of_ne m ρ c main_arg0 (by decide)

/-- The result array after both launches: the product of `x` with the weight matrix of `M` and `u`. -/
theorem result_eq (c : Dev nD) :
    W2 m ρ c (Proc.devRef .tc main_v1)
      = dense (m ((c.tc : Thread nD τ).loc main_arg0))
          (weights (m ((c.tc : Thread nD τ).loc main_arg1)) (m ((c.tc : Thread nD τ).loc main_arg2))) := by
  rw [← weights_found m ρ c, ← x_found m ρ c]
  exact (W2_arr m ρ c 2).trans (AccValue.final (V1 m ρ) c)

/-- The run, read at the extended reals. -/
theorem run : θ_run defs (onTc (τ := τ) (main (F := Ideal))) ⟨m, fun _ => 0, ρ⟩ (fun r => ∀ c : Dev nD,
      r.2.mem ((c.tc : Thread nD τ).loc main_v1)
        = dense (m ((c.tc : Thread nD τ).loc main_arg0))
            (weights (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_named m ρ)

end Cert.KernelIdeal.Run

end
-- ==== Proof.lean ====
/-
  A dense layer with randomly signed weights, against its plain reference.

  Both programs take x (8192 × 4096), M and u (4096 × 4096).  Each draws a weight matrix entry by entry —
  +1/64 where u lies strictly below the logistic function of M, −1/64 elsewhere — and returns the product of x
  with it.  The kernel does this in two launches: the first writes the weight matrix tile by tile (MaskValue),
  the second multiplies tile by tile, accumulating four partial products along the contracted axis into each
  result tile (AccPieces, AccValue); KernelRun joins the two.  The reference spells the weight as
  ((2·b − 1) + (s − s)) · (1/64) with s = 2·logistic(M) − 1, which is the same number because the logistic
  function is real-valued on every extended real (Spec), and takes one product over the whole contracted axis
  (RefValue).  Over the extended reals addition is commutative and associative, so the four partial sums of
  1024 terms are the one sum of 4096 terms; no finiteness of the inputs is needed.

  The three frames are the generated ones (the reference's is its generated run with the result dropped); the
  idealization rewrote nothing, so that conjunct is trivial.
-/
import proofs.«131951_j26044681683332_2_alg».proof.Defs
import proofs.«131951_j26044681683332_2_alg».proof.Proof.Gen.Kernel
import proofs.«131951_j26044681683332_2_alg».proof.Proof.Gen.Kernel.Frame
import proofs.«131951_j26044681683332_2_alg».proof.Proof.Gen.KernelIdeal
import proofs.«131951_j26044681683332_2_alg».proof.Proof.Gen.KernelIdeal.Frame
import proofs.«131951_j26044681683332_2_alg».proof.Proof.Gen.ReferenceIdeal
import proofs.«131951_j26044681683332_2_alg».proof.Proof.Gen.ReferenceIdeal.Run
import proofs.«131951_j26044681683332_2_alg».proof.Proof.Gen.ReferenceIdeal.Read
import proofs.«131951_j26044681683332_2_alg».proof.Proof.Gen.Pre_finite_inputs
import proofs.«131951_j26044681683332_2_alg».proof.Proof.RefValue
import proofs.«131951_j26044681683332_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals both programs end with the product of x with the weight matrix of M and u: the
    kernel by its two launches, the reference by its elementwise chain and one product, from arguments that
    agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
